-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3072 : Shape := ⟨2, ![8192, 3072]⟩
abbrev S3072x4096 : Shape := ⟨2, ![3072, 4096]⟩
abbrev S4096 : Shape := ⟨1, ![4096]⟩
abbrev S4096x10 : Shape := ⟨2, ![4096, 10]⟩
abbrev S10 : Shape := ⟨1, ![10]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S3072x4096 : S_.BroadcastsInDim S3072x4096 (![] : Fin 0 → Fin S3072x4096.rank)
  reducesTo_S3072x4096_S_d0_1 : S3072x4096.ReducesTo [0, 1] S_
  bcast_S_S4096 : S_.BroadcastsInDim S4096 (![] : Fin 0 → Fin S4096.rank)
  reducesTo_S4096_S_d0 : S4096.ReducesTo [0] S_
  bcast_S_S4096x10 : S_.BroadcastsInDim S4096x10 (![] : Fin 0 → Fin S4096x10.rank)
  reducesTo_S4096x10_S_d0_1 : S4096x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S10 .f32) (main_v13 : IVec S_ 1) (main_v16 : IVec S4096x10 1) : IVec S_ 1 :=
  let main_c_5 : IVec S_ 1 := constantI S_ 1 1#1
  let main_v17 : IVec S_ 1 := (fun x v => Host.reduce IntOp.andi x v reducesTo_S4096x10_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S8192x3072 .f32) (main_arg1 : FVec F S3072x4096 .f32) (main_arg2 : FVec F S4096 .f32) (main_arg3 : FVec F S4096x10 .f32) (main_arg4 : FVec F S10 .f32) : IVec S_ 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_c : IVec S_ 1 := constantI S_ 1 1#1
  let main_v3 : IVec S_ 1 := (fun x v => Host.reduce IntOp.andi x v reducesTo_S8192x3072_S_d0_1 h_S_) main_v2 main_c
  let main_v4 : FVec F S3072x4096 .f32 := Host.absf main_arg1
  let main_cst_0 : FVec F S_ .f32 := constant S_ .f32 0x7F800000#32
  let main_v5 : FVec F S3072x4096 .f32 := broadcastInDim S3072x4096 ![] bcast_S_S3072x4096 main_cst_0
  let main_v6 : IVec S3072x4096 1 := cmpf .olt main_v4 main_v5
  let main_c_1 : IVec S_ 1 := constantI S_ 1 1#1
  let main_v7 : IVec S_ 1 := (fun x v => Host.reduce IntOp.andi x v reducesTo_S3072x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x10 .f32 := Host.absf main_arg3
  let main_cst_4 : FVec F S_ .f32 := constant S_ .f32 0x7F800000#32
  let main_v15 : FVec F S4096x10 .f32 := broadcastInDim S4096x10 ![] bcast_S_S4096x10 main_cst_4
  let main_v16 : IVec S4096x10 1 := cmpf .olt main_v14 main_v15
  fn_part1 (F := F) main_arg4 main_v13 main_v16
-- ==== Kernel.lean ====
abbrev S8192x3072 : Shape := ⟨2, ![8192, 3072]⟩
abbrev S3072x4096 : Shape := ⟨2, ![3072, 4096]⟩
abbrev S4096 : Shape := ⟨1, ![4096]⟩
abbrev S4096x10 : Shape := ⟨2, ![4096, 10]⟩
abbrev S10 : Shape := ⟨1, ![10]⟩
abbrev S_ : Shape := ⟨0, ![]⟩
abbrev S4096x128 : Shape := ⟨2, ![4096, 128]⟩
abbrev S128 : Shape := ⟨1, ![128]⟩
abbrev S8192x128 : Shape := ⟨2, ![8192, 128]⟩
abbrev S256x3072 : Shape := ⟨2, ![256, 3072]⟩
abbrev S256x128 : Shape := ⟨2, ![256, 128]⟩
abbrev S256x4096 : Shape := ⟨2, ![256, 4096]⟩
abbrev S1x4096 : Shape := ⟨2, ![1, 4096]⟩
abbrev S1x128 : Shape := ⟨2, ![1, 128]⟩
abbrev S8192x10 : Shape := ⟨2, ![8192, 10]⟩

abbrev nBuf : Space → Nat
  | .hbm => 15
  | .vmem => 8
  | .smem => 0
  | _ => 0

abbrev bufTy : (tb : Table) → Fin (tcTables nBuf tb) → BufTy
  | .hbm, ⟨0, _⟩ => ⟨S8192x3072, .f32⟩
  | .hbm, ⟨1, _⟩ => ⟨S3072x4096, .f32⟩
  | .hbm, ⟨2, _⟩ => ⟨S4096, .f32⟩
  | .hbm, ⟨3, _⟩ => ⟨S4096x10, .f32⟩
  | .hbm, ⟨4, _⟩ => ⟨S10, .f32⟩
  | .hbm, ⟨5, _⟩ => ⟨S3072x4096, .bf16⟩
  | .hbm, ⟨6, _⟩ => ⟨S_, .i32⟩
  | .hbm, ⟨7, _⟩ => ⟨S_, .f32⟩
  | .hbm, ⟨8, _⟩ => ⟨S4096x128, .f32⟩
  | .hbm, ⟨9, _⟩ => ⟨S_, .i32⟩
  | .hbm, ⟨10, _⟩ => ⟨S_, .f32⟩
  | .hbm, ⟨11, _⟩ => ⟨S128, .f32⟩
  | .hbm, ⟨12, _⟩ => ⟨S4096x128, .bf16⟩
  | .hbm, ⟨13, _⟩ => ⟨S8192x128, .f32⟩
  | .hbm, ⟨14, _⟩ => ⟨S8192x10, .f32⟩
  | .local _ .vmem, ⟨0, _⟩ => ⟨S256x3072, .f32⟩
  | .local _ .vmem, ⟨1, _⟩ => ⟨S256x3072, .f32⟩
  | .local _ .vmem, ⟨2, _⟩ => ⟨S3072x4096, .bf16⟩
  | .local _ .vmem, ⟨3, _⟩ => ⟨S4096, .f32⟩
  | .local _ .vmem, ⟨4, _⟩ => ⟨S4096x128, .bf16⟩
  | .local _ .vmem, ⟨5, _⟩ => ⟨S128, .f32⟩
  | .local _ .vmem, ⟨6, _⟩ => ⟨S256x128, .f32⟩
  | .local _ .vmem, ⟨7, _⟩ => ⟨S256x128, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  pads_S4096x10_S4096x128_000_01180 : S4096x10.Pads (![0, 0] : Fin 2 → Nat) ![0, 118] ![0, 0] S4096x128
  h_S_ : 0 < S_.numel
  pads_S10_S128_01180 : S10.Pads (![0] : Fin 1 → Nat) ![118] ![0] S128
  inb_S256x3072_S256x3072_0_0 : ∀ a, (![0, 0] : Fin 2 → Nat) a + S256x3072.size a ≤ S256x3072.size a
  h_S256x3072 : 0 < S256x3072.numel
  inb_S3072x4096_S3072x4096_0_0 : ∀ a, (![0, 0] : Fin 2 → Nat) a + S3072x4096.size a ≤ S3072x4096.size a
  h_S3072x4096 : 0 < S3072x4096.numel
  shapeCasts_S3072x4096_S3072x4096 : S3072x4096.ShapeCasts S3072x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  slices_S8192x128_S8192x10_0_0 : S8192x128.Slices ![0, 0] S8192x10
  dot_S256x3072_S3072x4096_S256x4096_1_0_0_1_n_n_wf : DotDims.WF S256x3072 S3072x4096 S256x4096 [1] [0] [0] [1] [] []
  dot_S256x4096_S4096x128_S256x128_1_0_0_1_n_n_wf : DotDims.WF S256x4096 S4096x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3072.size a ≤ S8192x3072.size a
  hwx0_0 : ∀ i : grid0.Coords, EltTy.bits .f32 = 32 ∨ (Rect.block (s := S8192x3072) S256x3072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x4096.size a ≤ S3072x4096.size a
  hwx0_1 : ∀ i : grid0.Coords, EltTy.bits .bf16 = 32 ∨ (Rect.block (s := S3072x4096) S3072x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x128.size a
  hwx0_3 : ∀ i : grid0.Coords, EltTy.bits .bf16 = 32 ∨ (Rect.block (s := S4096x128) S4096x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S8192x128.size a
  hwx0_5 : ∀ i : grid0.Coords, EltTy.bits .f32 = 32 ∨ (Rect.block (s := S8192x128) S256x128.size (cc0_transform_5 i) (hinb0_5 i)).WholeWords (EltTy.packing .f32)

variable [Facts₀]

def dot_S256x3072_S3072x4096_S256x4096_1_0_0_1_n_n : DotDims S256x3072 S3072x4096 S256x4096 where
  lhsContracting := [1]
  rhsContracting := [0]
  lhsNonContracting := [0]
  rhsNonContracting := [1]
  lhsBatch := []
  rhsBatch := []
  wf := dot_S256x3072_S3072x4096_S256x4096_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf

abbrev win0_0 : Pipeline.Window sig grid0 :=
  Pipeline.Window.ofSpec (Memref.whole main_arg0) S256x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3072x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x3072 : Shape := ⟨2, ![8192, 3072]⟩
abbrev S3072x4096 : Shape := ⟨2, ![3072, 4096]⟩
abbrev S4096 : Shape := ⟨1, ![4096]⟩
abbrev S4096x10 : Shape := ⟨2, ![4096, 10]⟩
abbrev S10 : Shape := ⟨1, ![10]⟩
abbrev S8192x4096 : Shape := ⟨2, ![8192, 4096]⟩
abbrev S1x4096 : Shape := ⟨2, ![1, 4096]⟩
abbrev S_ : Shape := ⟨0, ![]⟩
abbrev S8192x10 : Shape := ⟨2, ![8192, 10]⟩
abbrev S1x10 : Shape := ⟨2, ![1, 10]⟩

abbrev nBuf : Space → Nat
  | .hbm => 16
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S3072x4096, .f32⟩
  | .hbm, ⟨2, _⟩ => ⟨S4096, .f32⟩
  | .hbm, ⟨3, _⟩ => ⟨S4096x10, .f32⟩
  | .hbm, ⟨4, _⟩ => ⟨S10, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x10, .f32⟩
  | .hbm, ⟨13, _⟩ => ⟨S1x10, .f32⟩
  | .hbm, ⟨14, _⟩ => ⟨S8192x10, .f32⟩
  | .hbm, ⟨15, _⟩ => ⟨S8192x10, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  dot_S8192x3072_S3072x4096_S8192x4096_1_0_0_1_n_n_wf : DotDims.WF S8192x3072 S3072x4096 S8192x4096 [1] [0] [0] [1] [] []
  dot_S8192x4096_S4096x10_S8192x10_1_0_0_1_n_n_wf : DotDims.WF S8192x4096 S4096x10 S8192x10 [1] [0] [0] [1] [] []

variable [Facts₀]

def dot_S8192x3072_S3072x4096_S8192x4096_1_0_0_1_n_n : DotDims S8192x3072 S3072x4096 S8192x4096 where
  lhsContracting := [1]
  rhsContracting := [0]
  lhsNonContracting := [0]
  rhsNonContracting := [1]
  lhsBatch := []
  rhsBatch := []
  wf := dot_S8192x3072_S3072x4096_S8192x4096_1_0_0_1_n_n_wf
def dot_S8192x4096_S4096x10_S8192x10_1_0_0_1_n_n : DotDims S8192x4096 S4096x10 S8192x10 where
  lhsContracting := [1]
  rhsContracting := [0]
  lhsNonContracting := [0]
  rhsNonContracting := [1]
  lhsBatch := []
  rhsBatch := []
  wf := dot_S8192x4096_S4096x10_S8192x10_1_0_0_1_n_n_wf

class Facts : Prop extends Facts₀ where

variable [Facts]
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibHostRow.lean ====
/-
  A bias row spread over the rows of a matrix, and a scalar spread over an array, on the host.

  To add a length-`d` vector to every row of an `[n, d]` array the host first regards the vector as one row `[1, d]`
  and then repeats that row `n` times (two `broadcast_in_dim`s, with dimension maps `[1]` and `[0, 1]`): entry (r, q) of
  the result is entry q of the vector. A scalar spread to any shape (dimension map `[]`) reads the scalar everywhere.
  All three steps are stated for arbitrary extents.
-/
import Idealize.ShloMosaic.Lib.Pipeline.Value
import Idealize.ShloMosaic.Lib.ValueIdx

noncomputable section

namespace Cert.LibHostRow

open Idealize.ShloMosaic Idealize.ShloMosaic.ValueIdx

/-- A vector regarded as one row reads, at (0, q), the vector's entry q. -/
theorem row_apply {α : Type} {d : ℕ} (x : (⟨1, ![d]⟩ : Shape).Idx → α)
    (h : (⟨1, ![d]⟩ : Shape).BroadcastsInDim ⟨2, ![1, d]⟩ (![1] : Fin 1 → Fin 2)) (u : Fin 1) (q : Fin d) :
    broadcastInDim ⟨2, ![1, d]⟩ ![1] h x (ix2 u q) = x (ix1 q) := by
  refine broadcastInDim_apply _ h x (ix2 u q) (ix1 q) fun a => ?_
  match a with
  | ⟨0, _⟩ =>
    show q.val = if d = 1 then 0 else q.val
    split
    · have := q.isLt; omega
    · rfl

/-- One row repeated down the rows reads, at (r, q), the row's entry q. -/
theorem rows_apply {α : Type} {n d : ℕ} (x : (⟨2, ![1, d]⟩ : Shape).Idx → α)
    (h : (⟨2, ![1, d]⟩ : Shape).BroadcastsInDim ⟨2, ![n, d]⟩ (![0, 1] : Fin 2 → Fin 2)) (r : Fin n) (q : Fin d) :
    broadcastInDim ⟨2, ![n, d]⟩ ![0, 1] h x (ix2 r q) = x (ix2 (0 : Fin 1) q) := by
  refine broadcastInDim_apply _ h x (ix2 r q) (ix2 (0 : Fin 1) q) fun a => ?_
  match a with
  | ⟨0, _⟩ => rfl
  | ⟨1, _⟩ =>
    show q.val = if d = 1 then 0 else q.val
    split
    · have := q.isLt; omega
    · rfl

/-- A scalar spread to any shape reads, everywhere, the scalar. -/
theorem scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun a => a.elim0

end Cert.LibHostRow

end
-- ==== Proof.LibDenseRow.lean ====
/-
  One row through a dense layer, as the vector unit and as the host spell it.

  For any extents M, K, N and at the extended reals. `lin x w b` is a row x of K entries times a K × N matrix w plus a
  bias given as a 1 × N row b. On a block of M rows the vector unit narrows both operands (the identity here), multiplies
  them on the matrix unit into an accumulator of zeros and adds the bias row broadcast down the rows; the host multiplies
  by `dot_general` and adds a bias VECTOR regarded as one row and repeated down the rows. Read at entry (p, q), both are
  `lin` of row p — on the host with the vector b appearing as the row (0, q) ↦ b q (`rowCast_apply`).
-/
import proofs.«115376_j21251498180718_2_alg».proof.Proof.LibPlainDot
import proofs.«115376_j21251498180718_2_alg».proof.Proof.LibHostRow
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Gine

open Idealize.ShloMosaic Idealize.ShloMosaic.ValueIdx

/-- An array of extended reals with a rows and b columns. -/
abbrev Mat (a b : ℕ) : Type := (⟨2, ![a, b]⟩ : Shape).Idx → EReal

/-- One row through a dense layer: the row times the matrix, plus the bias row. -/
def lin {K N : ℕ} (x : Fin K → EReal) (w : Mat K N) (b : Mat 1 N) (q : Fin N) : EReal :=
  (∑ k : Fin K, x k * w (ix2 k q)) + b (ix2 (0 : Fin 1) q)

/-- A product of narrowed operands accumulating into zero, plus a bias row broadcast down the rows. -/
theorem denseVec_apply {M K N : ℕ} (x : FVec Idealize.ShloMosaic.Ideal ⟨2, ![M, K]⟩ .f32)
    (w : FVec Idealize.ShloMosaic.Ideal ⟨2, ![K, N]⟩ .f32) (b : FVec Idealize.ShloMosaic.Ideal ⟨2, ![1, N]⟩ .f32)
    (hlt : FTy.bf16.bits < FTy.f32.bits) (hsc : (⟨2, ![1, N]⟩ : Shape).ShapeCasts ⟨2, ![1, N]⟩)
    (hb : (⟨2, ![1, N]⟩ : Shape).Broadcasts ⟨2, ![M, N]⟩) (p : Fin M) (q : Fin N) :
    addf (matmul (DotDims.plain M K N) none (truncf .bf16 x hlt) (truncf .bf16 w hlt)
          (constant ⟨2, ![M, N]⟩ .f32 0x00000000#32))
        (broadcastTo ⟨2, ![M, N]⟩ (shapeCast ⟨2, ![1, N]⟩ b hsc) hb) (ix2 p q)
      = lin (fun k => x (ix2 p k)) w b q := by
  show FloatOps.matmul (DotDims.plain M K N) none (truncf .bf16 x hlt) (truncf .bf16 w hlt)
        (constant ⟨2, ![M, N]⟩ .f32 0x00000000#32) (ix2 p q)
      + broadcastTo ⟨2, ![M, N]⟩ (shapeCast ⟨2, ![1, N]⟩ b hsc) hb (ix2 p q) = _
  rw [Cert.Sage.matmul_plain_zero_apply, broadcastTo_1b_ab_apply, shapeCast_self]
  rfl

/-- The same with the bias row broadcast as it is. -/
theorem denseVec_apply' {M K N : ℕ} (x : FVec Idealize.ShloMosaic.Ideal ⟨2, ![M, K]⟩ .f32)
    (w : FVec Idealize.ShloMosaic.Ideal ⟨2, ![K, N]⟩ .f32) (b : FVec Idealize.ShloMosaic.Ideal ⟨2, ![1, N]⟩ .f32)
    (hlt : FTy.bf16.bits < FTy.f32.bits)
    (hb : (⟨2, ![1, N]⟩ : Shape).Broadcasts ⟨2, ![M, N]⟩) (p : Fin M) (q : Fin N) :
    addf (matmul (DotDims.plain M K N) none (truncf .bf16 x hlt) (truncf .bf16 w hlt)
          (constant ⟨2, ![M, N]⟩ .f32 0x00000000#32))
        (broadcastTo ⟨2, ![M, N]⟩ b hb) (ix2 p q)
      = lin (fun k => x (ix2 p k)) w b q := by
  show FloatOps.matmul (DotDims.plain M K N) none (truncf .bf16 x hlt) (truncf .bf16 w hlt)
        (constant ⟨2, ![M, N]⟩ .f32 0x00000000#32) (ix2 p q)
      + broadcastTo ⟨2, ![M, N]⟩ b hb (ix2 p q) = _
  rw [Cert.Sage.matmul_plain_zero_apply, broadcastTo_1b_ab_apply]
  rfl

/-- A vector regarded as one row: entry (0, q) is entry q. -/
theorem rowCast_apply {N : ℕ} (b : (⟨1, ![N]⟩ : Shape).Idx → EReal) (hs : (⟨1, ![N]⟩ : Shape).ShapeCasts ⟨2, ![1, N]⟩)
    (q : Fin N) : shapeCast ⟨2, ![1, N]⟩ b hs (ix2 (0 : Fin 1) q) = b (ix1 q) :=
  shapeCast_apply b hs _ _ (by
    rw [Shape.rowMajor_val_two, Shape.rowMajor_val_one]
    show q.val = 0 * N + q.val
    omega)

/-- The host's dense layer at an entry. -/
theorem hostDense_apply {M K N : ℕ} (x : FVec Idealize.ShloMosaic.Ideal ⟨2, ![M, K]⟩ .f32) (w : FVec Idealize.ShloMosaic.Ideal ⟨2, ![K, N]⟩ .f32)
    (b : FVec Idealize.ShloMosaic.Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hs : (⟨1, ![N]⟩ : Shape).ShapeCasts ⟨2, ![1, N]⟩) (r : Fin M) (q : Fin N) :
    addf (Host.dotGeneral (F := Idealize.ShloMosaic.Ideal) (DotDims.plain M K N) none x w)
        (broadcastInDim ⟨2, ![M, N]⟩ ![0, 1] h2 (broadcastInDim ⟨2, ![1, N]⟩ ![1] h1 b)) (ix2 r q)
      = lin (fun k => x (ix2 r k)) w (shapeCast ⟨2, ![1, N]⟩ b hs) q := by
  show Host.dotGeneral (F := Idealize.ShloMosaic.Ideal) (DotDims.plain M K N) none x w (ix2 r q)
      + broadcastInDim ⟨2, ![M, N]⟩ ![0, 1] h2 (broadcastInDim ⟨2, ![1, N]⟩ ![1] h1 b) (ix2 r q) = _
  unfold Host.dotGeneral
  rw [Cert.Sage.dotGeneral_plain_apply, Cert.LibHostRow.rows_apply, Cert.LibHostRow.row_apply]
  unfold lin
  rw [rowCast_apply]

end Cert.Gine

end
-- ==== Proof.LibDenseLayer.lean ====
/-
  A dense layer, one row at a time, for operands of any float format.

  For any extents M, K, N and at the extended reals. `dense x w b` is a row x of K entries times a K × N matrix w plus a
  bias vector b of N entries; `relu` floors a row at a value. On a block of M rows the vector unit multiplies its two
  operands — of whatever float formats, a change of format being the identity here — on the matrix unit into an
  accumulator of zeros and adds the bias vector, regarded as one row and broadcast down the rows; the host multiplies by
  `dot_general` and adds the bias vector regarded as one row and repeated down the rows. Read at entry (p, q), both are
  `dense` of row p at q. `dense` depends on the matrix only through column q and on the bias only through entry q.
-/
import proofs.«115376_j21251498180718_2_alg».proof.Proof.LibDenseRow

noncomputable section

open scoped BigOperators

namespace Cert.DenseLayer

open Idealize.ShloMosaic Idealize.ShloMosaic.ValueIdx

/-- An array of extended reals with a rows and b columns. -/
abbrev Mat (a b : ℕ) : Type := (⟨2, ![a, b]⟩ : Shape).Idx → EReal

/-- One row through a dense layer: the row times the matrix, plus the bias. -/
def dense {K N : ℕ} (x : Fin K → EReal) (w : Mat K N) (b : Fin N → EReal) (q : Fin N) : EReal :=
  (∑ k : Fin K, x k * w (ix2 k q)) + b q

/-- A row floored at `z`, entry by entry. -/
def relu {N : ℕ} (x : Fin N → EReal) (z : EReal) (q : Fin N) : EReal := max (x q) z

/-- `dense` at `q` sees the matrix through column `q` and the bias through entry `q` only. -/
theorem dense_congr {K N N' : ℕ} (x x' : Fin K → EReal) (w : Mat K N) (w' : Mat K N') (b : Fin N → EReal) (b' : Fin N' → EReal)
    (q : Fin N) (q' : Fin N') (hx : ∀ k, x k = x' k) (hw : ∀ k, w (ix2 k q) = w' (ix2 k q')) (hb : b q = b' q') :
    dense x w b q = dense x' w' b' q' := by
  unfold dense
  rw [hb]
  exact congrArg (· + b' q') (Finset.sum_congr rfl fun k _ => by rw [hx k, hw k])

/-- The vector unit's layer: a product accumulating into zero, plus the bias vector as one row broadcast down the rows. -/
theorem vecDense_apply {M K N : ℕ} {φ₁ φ₂ : FTy} (x : FVec Idealize.ShloMosaic.Ideal ⟨2, ![M, K]⟩ φ₁)
    (w : FVec Idealize.ShloMosaic.Ideal ⟨2, ![K, N]⟩ φ₂) (b : FVec Idealize.ShloMosaic.Ideal ⟨1, ![N]⟩ .f32)
    (hs : (⟨1, ![N]⟩ : Shape).ShapeCasts ⟨2, ![1, N]⟩)
    (hb : (⟨2, ![1, N]⟩ : Shape).Broadcasts ⟨2, ![M, N]⟩) (p : Fin M) (q : Fin N) :
    addf (matmul (DotDims.plain M K N) none x w (constant ⟨2, ![M, N]⟩ .f32 0x00000000#32))
        (broadcastTo ⟨2, ![M, N]⟩ (shapeCast ⟨2, ![1, N]⟩ b hs) hb) (ix2 p q)
      = dense (fun k => x (ix2 p k)) w (fun q => b (ix1 q)) q := by
  show FloatOps.matmul (DotDims.plain M K N) none x w (constant ⟨2, ![M, N]⟩ .f32 0x00000000#32) (ix2 p q)
      + broadcastTo ⟨2, ![M, N]⟩ (shapeCast ⟨2, ![1, N]⟩ b hs) hb (ix2 p q) = _
  rw [Cert.Sage.matmul_plain_zero_apply, broadcastTo_1b_ab_apply, Cert.Gine.rowCast_apply]
  rfl

/-- The host's layer: `dot_general`, plus the bias vector as one row repeated down the rows. -/
theorem hostDense_apply {M K N : ℕ} (x : FVec Idealize.ShloMosaic.Ideal ⟨2, ![M, K]⟩ .f32)
    (w : FVec Idealize.ShloMosaic.Ideal ⟨2, ![K, N]⟩ .f32) (b : FVec Idealize.ShloMosaic.Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (q : Fin N) :
    addf (Host.dotGeneral (F := Idealize.ShloMosaic.Ideal) (DotDims.plain M K N) none x w)
        (broadcastInDim ⟨2, ![M, N]⟩ ![0, 1] h2 (broadcastInDim ⟨2, ![1, N]⟩ ![1] h1 b)) (ix2 r q)
      = dense (fun k => x (ix2 r k)) w (fun q => b (ix1 q)) q := by
  show Host.dotGeneral (F := Idealize.ShloMosaic.Ideal) (DotDims.plain M K N) none x w (ix2 r q)
      + broadcastInDim ⟨2, ![M, N]⟩ ![0, 1] h2 (broadcastInDim ⟨2, ![1, N]⟩ ![1] h1 b) (ix2 r q) = _
  unfold Host.dotGeneral
  rw [Cert.Sage.dotGeneral_plain_apply, Cert.LibHostRow.rows_apply, Cert.LibHostRow.row_apply]
  rfl

end Cert.DenseLayer

end
-- ==== Proof.Payload.lean ====
/-
  What the kernel's body computes, entry by entry.

  The body multiplies its 256-row block of x by the whole first-layer matrix, adds the first bias, floors at zero,
  multiplies by the whole (column-padded) second-layer matrix and adds the (padded) second bias. Entry (p, q) of what it
  stores is therefore the two-layer network `net` of row p of the block, at output column q.
-/
import proofs.«115376_j21251498180718_2_alg».proof.Proof.Gen.KernelIdeal.Skeleton
import proofs.«115376_j21251498180718_2_alg».proof.Proof.LibDenseLayer

noncomputable section

open scoped BigOperators

namespace Cert.Mlp

open Idealize.ShloMosaic Idealize.ShloMosaic.ValueIdx Cert.DenseLayer

/-- A row through two dense layers with a floor at `z` between them. -/
def net {K H N : ℕ} (x : Fin K → EReal) (w1 : Mat K H) (b1 : Fin H → EReal) (z : EReal) (w2 : Mat H N) (b2 : Fin N → EReal)
    (q : Fin N) : EReal :=
  dense (relu (dense x w1 b1) z) w2 b2 q

/-- The network at output `q` sees the second layer through column `q` of its matrix and entry `q` of its bias only. -/
theorem net_congr {K H N N' : ℕ} (x x' : Fin K → EReal) (w1 : Mat K H) (b1 : Fin H → EReal) (z : EReal)
    (w2 : Mat H N) (w2' : Mat H N') (b2 : Fin N → EReal) (b2' : Fin N' → EReal) (q : Fin N) (q' : Fin N')
    (hx : ∀ k, x k = x' k) (hw : ∀ j, w2 (ix2 j q) = w2' (ix2 j q')) (hb : b2 q = b2' q') :
    net x w1 b1 z w2 b2 q = net x' w1 b1 z w2' b2' q' := by
  obtain rfl : x = x' := funext hx
  exact dense_congr _ _ _ _ _ _ q q' (fun _ => rfl) hw hb

end Cert.Mlp

namespace Cert.KernelIdeal.Body

open Idealize.ShloMosaic Idealize.ShloMosaic.ValueIdx Cert.DenseLayer Cert.Mlp
open Cert.KernelIdeal Cert.KernelIdeal.Gen

/-- Entry (p, q) of the stored block is the network of row p of the x block at column q. -/
theorem pay_apply (v0 : FVec Ideal S256x3072 .f32) (v2 : FVec Ideal S3072x4096 .bf16) (v5 : FVec Ideal S4096 .f32)
    (v12 : FVec Ideal S4096x128 .bf16) (v15 : FVec Ideal S128 .f32) (p : Fin 256) (q : Fin 128) :
    k0_pay1 (F := Ideal) v0 v2 v5 v12 v15 (ix2 p q)
      = net (fun k => v0 (ix2 p k)) v2 (fun j => v5 (ix1 j)) (Ideal.ofBits .f32 0x00000000#32) v12 (fun q => v15 (ix1 q)) q := by
  unfold k0_pay1
  refine (vecDense_apply (M := 256) (K := 4096) (N := 128) _ _ _ _ _ p q).trans ?_
  unfold net
  refine dense_congr _ _ _ _ _ _ q q (fun j => ?_) (fun j => ?_) ?_
  · show max _ _ = max _ _
    refine congrArg (max · _) ?_
    refine (vecDense_apply (M := 256) (K := 3072) (N := 4096) _ _ _ _ _ p j).trans ?_
    refine dense_congr _ _ _ _ _ _ j j (fun k => rfl) (fun k => ?_) rfl
    rw [shapeCast_self]
  · rw [shapeCast_self]
  · rw [shapeCast_self]

end Cert.KernelIdeal.Body

end
-- ==== Proof.Blocks.lean ====
/-
  From blocks to the array.

  The result of the launch before the last 118 columns are cut off is the [8192, 128] array `padded`: row r, column q
  holds the network of row r of x at column q of the padded second layer. Grid point t reads rows 256 t … 256 t + 255 of x
  and the four other arrays whole, and what it writes back is rows 256 t … 256 t + 255 of `padded`; the 32 points' blocks
  cover the array, so the array ends holding `padded`.
-/
import proofs.«115376_j21251498180718_2_alg».proof.Proof.Gen.KernelIdeal.Frame
import proofs.«115376_j21251498180718_2_alg».proof.Proof.Payload
import Idealize.ShloMosaic.Lib.Pipeline.Value

noncomputable section

namespace Cert.KernelIdeal.Body

open Idealize.ShloMosaic Idealize.ShloMosaic.TcCoe Idealize.SL.Sem Idealize.ShloMosaic.ValueIdx
open Idealize.ShloMosaic.Pipeline (Dat)
open Cert.DenseLayer Cert.Mlp Cert.KernelIdeal Cert.KernelIdeal.Gen

variable (m : (ℓ : Loc nD τ sig) → Buf (Elt Ideal) ℓ)

/-- The launch's result: row r, column q is the network of row r of `X` at column q. -/
def padded (X : FVec Ideal S8192x3072 .f32) (W1 : FVec Ideal S3072x4096 .bf16) (B1 : FVec Ideal S4096 .f32)
    (W2 : FVec Ideal S4096x128 .bf16) (B2 : FVec Ideal S128 .f32) : FVec Ideal S8192x128 .f32 :=
  fun i => net (fun k => X (ix2 (⟨(i 0).val, (i 0).isLt⟩ : Fin 8192) k)) W1 (fun j => B1 (ix1 j))
    (Ideal.ofBits .f32 0x00000000#32) W2 (fun q => B2 (ix1 q)) (⟨(i 1).val, (i 1).isLt⟩ : Fin 128)

theorem hz2 : (![0, 0] : Fin 2 → Nat) = fun _ => 0 := funext fun a => by fin_cases a <;> rfl
theorem hz1 : (![0] : Fin 1 → Nat) = fun _ => 0 := funext fun a => by fin_cases a; rfl

/-- The block indices over the grid: x and the result move one block of rows per point, the other arrays stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The stored block as rows of `padded`, for blocks that are the stated parts of the arrays. -/
theorem block_eq (T : ℕ) (hT : T < 32) (X : FVec Ideal S8192x3072 .f32) (W1 : FVec Ideal S3072x4096 .bf16)
    (B1 : FVec Ideal S4096 .f32) (W2 : FVec Ideal S4096x128 .bf16) (B2 : FVec Ideal S128 .f32)
    (x0 : FVec Ideal S256x3072 .f32) (x1 : FVec Ideal S3072x4096 .bf16) (x2 : FVec Ideal S4096 .f32)
    (x3 : FVec Ideal S4096x128 .bf16) (x4 : FVec Ideal S128 .f32)
    (h0 : ∀ (p : Fin 256) (k : Fin 3072), x0 (ix2 p k) = X (ix2 (⟨256 * T + p.val, by have := p.isLt; omega⟩ : Fin 8192) k))
    (h1 : x1 = W1) (h2 : x2 = B1) (h3 : x3 = W2) (h4 : x4 = B2) (y : S256x128.Idx) :
    k0_pay1 (F := Ideal) x0 x1 x2 x3 x4 y
      = padded X W1 B1 W2 B2 (ix2 (⟨256 * T + (y 0).val, by have h : (y 0).val < 256 := (y 0).isLt; omega⟩ : Fin 8192)
          (⟨(y 1).val, (y 1).isLt⟩ : Fin 128)) := by
  subst h1 h2 h3 h4
  obtain ⟨p, q, rfl⟩ : ∃ (p : Fin 256) (q : Fin 128), y = ix2 p q := ⟨y 0, y 1, eq_ix2 y⟩
  rw [pay_apply]
  exact net_congr _ _ _ _ _ _ _ _ _ _ _ (fun k => h0 p k) (fun _ => rfl) rfl

/-- x's block at point `t` is rows 256 t … 256 t + 255 of x. -/
theorem iblk0_apply (c : Dev nD) (t : Fin cfg0.N) (p : Fin 256) (k : Fin 3072) :
    (iblk m c 0 t : FVec Ideal S256x3072 .f32) (ix2 p k)
      = (V m c main_arg0 : FVec Ideal S8192x3072 .f32)
          (ix2 (⟨256 * t.val + p.val, by have := t.isLt; have hN : cfg0.N = 32 := N_0; have := p.isLt; omega⟩ : Fin 8192) k) := by
  obtain ⟨e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 256 + 1 * p.val = 256 * t.val + p.val; rw [e0]; omega
  | ⟨1, _⟩ => show win0_0.index t (1 : Fin 2) * 3072 + 1 * k.val = k.val; rw [e1]; omega

/-- The first-layer matrix's block at any point is the whole matrix. -/
theorem iblk1_eq (c : Dev nD) (t : Fin cfg0.N) : (iblk m c 1 t : FVec Ideal S3072x4096 .bf16) = V m c main_v0 := by
  obtain ⟨-, -, e0, e1, -⟩ := idx_facts t
  funext y
  unfold iblk
  rw [View.read_apply]
  show V m c main_v0 _ = V m c main_v0 _
  refine congrArg (V m c main_v0) (funext fun a => Fin.ext ?_)
  match a with
  | ⟨0, _⟩ => show win0_1.index t (0 : Fin 2) * 3072 + 1 * (y 0).val = (y 0).val; rw [e0]; omega
  | ⟨1, _⟩ => show win0_1.index t (1 : Fin 2) * 4096 + 1 * (y 1).val = (y 1).val; rw [e1]; omega

/-- The first bias's block at any point is the whole vector. -/
theorem iblk2_eq (c : Dev nD) (t : Fin cfg0.N) : (iblk m c 2 t : FVec Ideal S4096 .f32) = V m c main_arg2 := by
  obtain ⟨-, -, -, -, e0, -⟩ := idx_facts t
  funext y
  unfold iblk
  rw [View.read_apply]
  show V m c main_arg2 _ = V m c main_arg2 _
  refine congrArg (V m c main_arg2) (funext fun a => Fin.ext ?_)
  match a with
  | ⟨0, _⟩ => show win0_2.index t (0 : Fin 1) * 4096 + 1 * (y 0).val = (y 0).val; rw [e0]; omega

/-- The second-layer matrix's block at any point is the whole matrix. -/
theorem iblk3_eq (c : Dev nD) (t : Fin cfg0.N) : (iblk m c 3 t : FVec Ideal S4096x128 .bf16) = V m c main_v3 := by
  obtain ⟨-, -, -, -, -, e0, e1, -⟩ := idx_facts t
  funext y
  unfold iblk
  rw [View.read_apply]
  show V m c main_v3 _ = V m c main_v3 _
  refine congrArg (V m c main_v3) (funext fun a => Fin.ext ?_)
  match a with
  | ⟨0, _⟩ => show win0_3.index t (0 : Fin 2) * 4096 + 1 * (y 0).val = (y 0).val; rw [e0]; omega
  | ⟨1, _⟩ => show win0_3.index t (1 : Fin 2) * 128 + 1 * (y 1).val = (y 1).val; rw [e1]; omega

/-- The second bias's block at any point is the whole vector. -/
theorem iblk4_eq (c : Dev nD) (t : Fin cfg0.N) : (iblk m c 4 t : FVec Ideal S128 .f32) = V m c main_v2 := by
  obtain ⟨-, -, -, -, -, -, -, e0, -⟩ := idx_facts t
  funext y
  unfold iblk
  rw [View.read_apply]
  show V m c main_v2 _ = V m c main_v2 _
  refine congrArg (V m c main_v2) (funext fun a => Fin.ext ?_)
  match a with
  | ⟨0, _⟩ => show win0_4.index t (0 : Fin 1) * 128 + 1 * (y 0).val = (y 0).val; rw [e0]; omega

/-- What point `t` writes back is block `t` of `padded` of the arrays as the region finds them. -/
theorem flushed_eq (c : Dev nD) (t : Fin cfg0.N) :
    (dats m 0 c).flushed 5 t = ((cfg0.win 5).blk t).view.read (Elt Ideal)
      (padded (V m c main_arg0) (V m c main_v0) (V m c main_arg2) (V m c main_v3) (V m c main_v2)) := by
  show (cfg0.win 5).cut (grid0.coords t) ((dats m 0 c).after 5 t) = _
  rw [after0_5]
  unfold out0_5
  rw [View.canon_unit_zero hz2]
  simp only [View.ld_unit_zero (S := S256x3072) hz2, View.ld_unit_zero (S := S3072x4096) hz2, View.ld_unit_zero (S := S4096) hz1,
    View.ld_unit_zero (S := S4096x128) hz2, View.ld_unit_zero (S := S128) hz1]
  have hN : cfg0.N = 32 := N_0
  obtain ⟨-, -, -, -, -, -, -, -, e0, e1⟩ := idx_facts t
  funext y
  rw [View.read_apply]
  refine (block_eq t.val (by have := t.isLt; omega) (V m c main_arg0) (V m c main_v0) (V m c main_arg2) (V m c main_v3) (V m c main_v2)
    _ _ _ _ _ (iblk0_apply m c t) (iblk1_eq m c t) (iblk2_eq m c t) (iblk3_eq m c t) (iblk4_eq m c t) y).trans ?_
  refine congrArg (padded (V m c main_arg0) (V m c main_v0) (V m c main_arg2) (V m c main_v3) (V m c main_v2)) (funext fun a => Fin.ext ?_)
  match a with
  | ⟨0, _⟩ => show 256 * t.val + (y 0).val = win0_5.index t (0 : Fin 2) * 256 + 1 * (y 0).val; rw [e0]; omega
  | ⟨1, _⟩ => show (y 1).val = win0_5.index t (1 : Fin 2) * 128 + 1 * (y 1).val; rw [e1]; omega

/-- An index of the result array is in point `t`'s block iff each coordinate is in the block's range on its axis. -/
theorem mem_blk (t : Fin cfg0.N) (i : S8192x128.Idx) :
    i ∈ ((cfg0.win 5).blk t).view.set ↔ ∀ a : Fin 2, win0_5.index t a * S256x128.size a ≤ (i a).val
      ∧ (i a).val < win0_5.index t a * S256x128.size a + S256x128.size a := by
  show i ∈ ((View.whole main_v4).slice (win0_5.rect t)).set ↔ _
  rw [View.set_slice_whole, Rect.mem_set_unit]
  exact Iff.rfl

/-- Every row of the result is in the block of the point numbered by the row's quotient by 256. -/
theorem cover (i : S8192x128.Idx) : ∃ t : Fin cfg0.N, (cfg0.win 5).flush t = true ∧ i ∈ ((cfg0.win 5).blk t).view.set := by
  have hN : cfg0.N = 32 := N_0
  have hi0 : (i 0).val < 8192 := (i 0).isLt
  have hi1 : (i 1).val < 128 := (i 1).isLt
  obtain ⟨t, ht⟩ : ∃ t : Fin cfg0.N, t.val = (i 0).val / 256 := ⟨⟨(i 0).val / 256, by omega⟩, rfl⟩
  obtain ⟨-, -, -, -, -, -, -, -, e0, e1⟩ := idx_facts t
  refine ⟨t, flush0_5 t, ?_⟩
  rw [mem_blk]
  intro a
  match a with
  | ⟨0, _⟩ => show win0_5.index t (0 : Fin 2) * 256 ≤ (i 0).val ∧ (i 0).val < win0_5.index t (0 : Fin 2) * 256 + 256; rw [e0]; omega
  | ⟨1, _⟩ => show win0_5.index t (1 : Fin 2) * 128 ≤ (i 1).val ∧ (i 1).val < win0_5.index t (1 : Fin 2) * 128 + 128; rw [e1]; omega

/-- The result array of the launch ends holding `padded` of the arrays as the region finds them. -/
theorem final (c : Dev nD) : (dats m 0 c).arrAt 5 cfg0.N
    = padded (V m c main_arg0) (V m c main_v0) (V m c main_arg2) (V m c main_v3) (V m c main_v2) :=
  (dats m 0 c).arrAt_eq_of_cover 5 _ (fun t _ => flushed_eq m c t) cover

end Cert.KernelIdeal.Body

end
-- ==== Proof.Entry.lean ====
/-
  What the region finds in the three arrays the host prepares before it: the first-layer matrix with its format changed,
  the second-layer matrix padded with 118 columns of the padding value and its format changed, and the second bias padded
  with 118 entries of the padding value.
-/
import proofs.«115376_j21251498180718_2_alg».proof.Proof.Gen.KernelIdeal.Frame
import Idealize.ShloMosaic.Lib.StableHlo.Run

noncomputable section

namespace Cert.KernelIdeal.Entry

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- The padding value: the integer zero converted to a float. -/
abbrev padv : (⟨S_, .f32⟩ : BufTy).Contents (Elt F) := sitofp .f32 (constantI S_ 32 0#32)

/-- The first-layer matrix as the region finds it. -/
theorem V_main_v0 (c : Dev nD) :
    (V m c main_v0 : (⟨S3072x4096, .bf16⟩ : BufTy).Contents (Elt F))
      = truncf .bf16 (m ((c : Thread nD τ).loc main_arg1)) bitsLt_bf16_f32 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results <;> rfl

/-- The second bias as the region finds it. -/
theorem V_main_v2 (c : Dev nD) :
    (V m c main_v2 : (⟨S128, .f32⟩ : BufTy).Contents (Elt F))
      = pad S128 ![0] ![118] ![0] (m ((c : Thread nD τ).loc main_arg4)) (padv (F := F)) pads_S10_S128_01180 h_S_ := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results <;> rfl

/-- The second-layer matrix as the region finds it. -/
theorem V_main_v3 (c : Dev nD) :
    (V m c main_v3 : (⟨S4096x128, .bf16⟩ : BufTy).Contents (Elt F))
      = truncf .bf16 (pad S4096x128 ![0, 0] ![0, 118] ![0, 0] (m ((c : Thread nD τ).loc main_arg3)) (padv (F := F))
          pads_S4096x10_S4096x128_000_01180 h_S_) bitsLt_bf16_f32 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results <;> rfl

end Cert.KernelIdeal.Entry

end
-- ==== Proof.KernelRun.lean ====
/-
  The kernel's program run, read: its result is the first ten columns of `padded`.
-/
import proofs.«115376_j21251498180718_2_alg».proof.Proof.Blocks
import proofs.«115376_j21251498180718_2_alg».proof.Proof.Entry
import Idealize.ShloMosaic.Lib.StableHlo.Run

noncomputable section

namespace Cert.KernelIdeal.Body

open Idealize.ShloMosaic Idealize.ShloMosaic.TcCoe Idealize.SL.Sem Idealize.ShloMosaic.ValueIdx Idealize.ShloMosaic.StableHlo
open Idealize.ShloMosaic.Pipeline (Dat)
open Cert.DenseLayer Cert.Mlp Cert.KernelIdeal Cert.KernelIdeal.Gen

variable (m : (ℓ : Loc nD τ sig) → Buf (Elt Ideal) ℓ) (ρ : Dev nD → PrngReg)

/-- After the slice that follows the launch, the result buffer holds the first ten columns of `padded`. -/
theorem tail_eq (c : Dev nD) :
    Pipeline.afterTail₀ cfgs (dats m) 0 (V0 m) [hostOps1] c main_v5
      = extractStridedSlice S8192x10 ![0, 0]
          (padded (V m c main_arg0) (V m c main_v0) (V m c main_arg2) (V m c main_v3) (V m c main_v2))
          slices_S8192x128_S8192x10_0_0 := by
  unfold Pipeline.afterTail₀
  show StableHlo.after hostOps1 _ (Proc.devRef .tc main_v5) = _
  after_results
  refine congrArg (fun x : FVec Ideal S8192x128 .f32 => extractStridedSlice S8192x10 ![0, 0] x slices_S8192x128_S8192x10_0_0) ?_
  exact (Pipeline.withArrays_arr spec0 launch0.win.arr_inj c _ _ 5).trans (final m c)

/-- The program's result as a function of its five arguments: the first ten columns of `padded` of x, the first-layer
    matrix, the first bias, the second-layer matrix padded to 128 columns and the second bias padded to 128 entries. -/
def result (X : FVec Ideal S8192x3072 .f32) (W1 : FVec Ideal S3072x4096 .f32) (B1 : FVec Ideal S4096 .f32)
    (W2 : FVec Ideal S4096x10 .f32) (B2 : FVec Ideal S10 .f32) : FVec Ideal S8192x10 .f32 :=
  extractStridedSlice S8192x10 ![0, 0]
    (padded X (truncf .bf16 W1 bitsLt_bf16_f32) B1
      (truncf .bf16 (pad S4096x128 ![0, 0] ![0, 118] ![0, 0] W2 (Entry.padv (F := Ideal)) pads_S4096x10_S4096x128_000_01180 h_S_) bitsLt_bf16_f32)
      (pad S128 ![0] ![118] ![0] B2 (Entry.padv (F := Ideal)) pads_S10_S128_01180 h_S_))
    slices_S8192x128_S8192x10_0_0

/-- Every weakly fair execution of the kernel's program ends with the result buffer at `result` of the arguments and the
    arguments unchanged. -/
theorem run : θ_run defs (onTc (τ := τ) (main (F := Ideal))) ⟨m, fun _ => 0, ρ⟩ fun r => ∀ c : Dev nD,
      r.2.mem ((c.tc : Thread nD τ).loc main_v5)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
      (((h c).2 main_v5 (Pipeline.mem_restRefs_of main_v5 (by decide) (by decide))).trans (tail_eq m c)).trans (by
        unfold result
        rw [V_main_arg0, V_main_arg2, Entry.V_main_v0, Entry.V_main_v2, Entry.V_main_v3]),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Body

end
-- ==== Proof.LibStackPad.lean ====
/-
  Stacking and padding read at an index, for any extents and any element type.

  `jnp.stack` of four arrays lowers to four broadcasts that give each array a leading axis of extent one and one
  concatenation along that axis; `jnp.pad` with zeros after the last axis lowers to one `pad`. Read at an index:

  * an [a, b] array given a leading unit axis reads, at (0, i, j), the array at (i, j); a [b] vector likewise;
  * four [1, a, b] pieces concatenated along the leading axis read, at (t, i, j), piece t at (0, i, j); four [1, b]
    pieces likewise;
  * an [a, o] array padded after its last axis to [a, n] reads, at (i, j), the array at (i, j) while j < o and the
    padding value from column o on; a [o] vector likewise.
-/
import Idealize.ShloMosaic.Lib.Pipeline.Value
import Idealize.ShloMosaic.Lib.KernelVsHost
import Idealize.ShloMosaic.Lib.ValueIdx

noncomputable section

namespace Cert.StackPad

open Idealize.ShloMosaic Idealize.ShloMosaic.ValueIdx

variable {α : Type}

/-! ## A leading unit axis added by a broadcast -/

/-- An [a, b] array broadcast to [1, a, b] along its own two axes reads, at (u, i, j), the array at (i, j). -/
theorem lead3_apply {a b : ℕ} (x : (⟨2, ![a, b]⟩ : Shape).Idx → α)
    (h : (⟨2, ![a, b]⟩ : Shape).BroadcastsInDim ⟨3, ![1, a, b]⟩ (![1, 2] : Fin 2 → Fin 3)) (u : Fin 1) (i : Fin a) (j : Fin b) :
    broadcastInDim ⟨3, ![1, a, b]⟩ ![1, 2] h x (ix3 u i j) = x (ix2 i j) := by
  refine broadcastInDim_apply _ h x _ _ fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- A [b] vector broadcast to [1, b] along its own axis reads, at (u, j), the vector at j. -/
theorem lead2_apply {b : ℕ} (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x _ _ fun ax => ?_
  match ax with
  | ⟨0, _⟩ =>
    show j.val = if b = 1 then 0 else j.val
    split
    · have := j.isLt; omega
    · rfl

/-! ## Four unit-leading pieces stacked -/

/-- Four [1, a, b] pieces concatenated along the leading axis read, at (t, i, j), piece t at (0, i, j). -/
theorem stack4_lead3_apply {a b : ℕ} (x0 x1 x2 x3 : (⟨3, ![1, a, b]⟩ : Shape).Idx → α)
    (h : Shape.Concatenates [(⟨3, ![1, a, b]⟩ : Shape), ⟨3, ![1, a, b]⟩, ⟨3, ![1, a, b]⟩, ⟨3, ![1, a, b]⟩] ⟨3, ![4, a, b]⟩ 0)
    (t : Fin 4) (i : Fin a) (j : Fin b) :
    concatenate ⟨3, ![4, a, b]⟩ 0 [⟨⟨3, ![1, a, b]⟩, x0⟩, ⟨⟨3, ![1, a, b]⟩, x1⟩, ⟨⟨3, ![1, a, b]⟩, x2⟩, ⟨⟨3, ![1, a, b]⟩, x3⟩] h (ix3 t i j)
      = (![x0, x1, x2, x3] : Fin 4 → _) t (ix3 (0 : Fin 1) i j) := by
  have hoff : ∀ b' : Fin 3, b'.cast (rfl : (3 : ℕ) = 3) ≠ (0 : Fin 3) →
      ((ix3 (0 : Fin 1) i j : (⟨3, ![1, a, b]⟩ : Shape).Idx) b').val = ((ix3 t i j : (⟨3, ![4, a, b]⟩ : Shape).Idx) (b'.cast rfl)).val := fun b' hb' => by
    match b' with
    | ⟨0, _⟩ => exact absurd rfl hb'
    | ⟨1, _⟩ => rfl
    | ⟨2, _⟩ => rfl
  match t with
  | ⟨0, _⟩ =>
    exact concatenate_apply_piece (t := ⟨3, ![4, a, b]⟩) (0 : Fin 3) [⟨⟨3, ![1, a, b]⟩, x0⟩, ⟨⟨3, ![1, a, b]⟩, x1⟩, ⟨⟨3, ![1, a, b]⟩, x2⟩, ⟨⟨3, ![1, a, b]⟩, x3⟩] h (ix3 (⟨0, by omega⟩ : Fin 4) i j) 0 (by show (0 : ℕ) < 4; omega) ⟨3, ![1, a, b]⟩ x0 rfl rfl 0 (by rfl) (ix3 (0 : Fin 1) i j) hoff (by rfl)
  | ⟨1, _⟩ =>
    exact concatenate_apply_piece (t := ⟨3, ![4, a, b]⟩) (0 : Fin 3) [⟨⟨3, ![1, a, b]⟩, x0⟩, ⟨⟨3, ![1, a, b]⟩, x1⟩, ⟨⟨3, ![1, a, b]⟩, x2⟩, ⟨⟨3, ![1, a, b]⟩, x3⟩] h (ix3 (⟨1, by omega⟩ : Fin 4) i j) 1 (by show (1 : ℕ) < 4; omega) ⟨3, ![1, a, b]⟩ x1 rfl rfl 1 (by rfl) (ix3 (0 : Fin 1) i j) hoff (by rfl)
  | ⟨2, _⟩ =>
    exact concatenate_apply_piece (t := ⟨3, ![4, a, b]⟩) (0 : Fin 3) [⟨⟨3, ![1, a, b]⟩, x0⟩, ⟨⟨3, ![1, a, b]⟩, x1⟩, ⟨⟨3, ![1, a, b]⟩, x2⟩, ⟨⟨3, ![1, a, b]⟩, x3⟩] h (ix3 (⟨2, by omega⟩ : Fin 4) i j) 2 (by show (2 : ℕ) < 4; omega) ⟨3, ![1, a, b]⟩ x2 rfl rfl 2 (by rfl) (ix3 (0 : Fin 1) i j) hoff (by rfl)
  | ⟨3, _⟩ =>
    exact concatenate_apply_piece (t := ⟨3, ![4, a, b]⟩) (0 : Fin 3) [⟨⟨3, ![1, a, b]⟩, x0⟩, ⟨⟨3, ![1, a, b]⟩, x1⟩, ⟨⟨3, ![1, a, b]⟩, x2⟩, ⟨⟨3, ![1, a, b]⟩, x3⟩] h (ix3 (⟨3, by omega⟩ : Fin 4) i j) 3 (by show (3 : ℕ) < 4; omega) ⟨3, ![1, a, b]⟩ x3 rfl rfl 3 (by rfl) (ix3 (0 : Fin 1) i j) hoff (by rfl)

/-- Four [1, b] pieces concatenated along the leading axis read, at (t, j), piece t at (0, j). -/
theorem stack4_lead2_apply {b : ℕ} (x0 x1 x2 x3 : (⟨2, ![1, b]⟩ : Shape).Idx → α)
    (h : Shape.Concatenates [(⟨2, ![1, b]⟩ : Shape), ⟨2, ![1, b]⟩, ⟨2, ![1, b]⟩, ⟨2, ![1, b]⟩] ⟨2, ![4, b]⟩ 0)
    (t : Fin 4) (j : Fin b) :
    concatenate ⟨2, ![4, b]⟩ 0 [⟨⟨2, ![1, b]⟩, x0⟩, ⟨⟨2, ![1, b]⟩, x1⟩, ⟨⟨2, ![1, b]⟩, x2⟩, ⟨⟨2, ![1, b]⟩, x3⟩] h (ix2 t j)
      = (![x0, x1, x2, x3] : Fin 4 → _) t (ix2 (0 : Fin 1) j) := by
  have hoff : ∀ b' : Fin 2, b'.cast (rfl : (2 : ℕ) = 2) ≠ (0 : Fin 2) →
      ((ix2 (0 : Fin 1) j : (⟨2, ![1, b]⟩ : Shape).Idx) b').val = ((ix2 t j : (⟨2, ![4, b]⟩ : Shape).Idx) (b'.cast rfl)).val := fun b' hb' => by
    match b' with
    | ⟨0, _⟩ => exact absurd rfl hb'
    | ⟨1, _⟩ => rfl
  match t with
  | ⟨0, _⟩ =>
    exact concatenate_apply_piece (t := ⟨2, ![4, b]⟩) (0 : Fin 2) [⟨⟨2, ![1, b]⟩, x0⟩, ⟨⟨2, ![1, b]⟩, x1⟩, ⟨⟨2, ![1, b]⟩, x2⟩, ⟨⟨2, ![1, b]⟩, x3⟩] h (ix2 (⟨0, by omega⟩ : Fin 4) j) 0 (by show (0 : ℕ) < 4; omega) ⟨2, ![1, b]⟩ x0 rfl rfl 0 (by rfl) (ix2 (0 : Fin 1) j) hoff (by rfl)
  | ⟨1, _⟩ =>
    exact concatenate_apply_piece (t := ⟨2, ![4, b]⟩) (0 : Fin 2) [⟨⟨2, ![1, b]⟩, x0⟩, ⟨⟨2, ![1, b]⟩, x1⟩, ⟨⟨2, ![1, b]⟩, x2⟩, ⟨⟨2, ![1, b]⟩, x3⟩] h (ix2 (⟨1, by omega⟩ : Fin 4) j) 1 (by show (1 : ℕ) < 4; omega) ⟨2, ![1, b]⟩ x1 rfl rfl 1 (by rfl) (ix2 (0 : Fin 1) j) hoff (by rfl)
  | ⟨2, _⟩ =>
    exact concatenate_apply_piece (t := ⟨2, ![4, b]⟩) (0 : Fin 2) [⟨⟨2, ![1, b]⟩, x0⟩, ⟨⟨2, ![1, b]⟩, x1⟩, ⟨⟨2, ![1, b]⟩, x2⟩, ⟨⟨2, ![1, b]⟩, x3⟩] h (ix2 (⟨2, by omega⟩ : Fin 4) j) 2 (by show (2 : ℕ) < 4; omega) ⟨2, ![1, b]⟩ x2 rfl rfl 2 (by rfl) (ix2 (0 : Fin 1) j) hoff (by rfl)
  | ⟨3, _⟩ =>
    exact concatenate_apply_piece (t := ⟨2, ![4, b]⟩) (0 : Fin 2) [⟨⟨2, ![1, b]⟩, x0⟩, ⟨⟨2, ![1, b]⟩, x1⟩, ⟨⟨2, ![1, b]⟩, x2⟩, ⟨⟨2, ![1, b]⟩, x3⟩] h (ix2 (⟨3, by omega⟩ : Fin 4) j) 3 (by show (3 : ℕ) < 4; omega) ⟨2, ![1, b]⟩ x3 rfl rfl 3 (by rfl) (ix2 (0 : Fin 1) j) hoff (by rfl)

/-! ## Padding after the last axis -/

/-- An [a, o] array padded after its last axis to [a, n] reads, at (i, j), the array at (i, j) while j < o, and the
    padding value from column o on. -/
theorem padCols_apply {a o p n : ℕ} (x : (⟨2, ![a, o]⟩ : Shape).Idx → α) {u : Shape} (v : u.Idx → α)
    (h : (⟨2, ![a, o]⟩ : Shape).Pads (![0, 0] : Fin 2 → ℕ) ![0, p] ![0, 0] ⟨2, ![a, n]⟩) (hu : 0 < u.numel) (i : Fin a) (j : Fin n) :
    pad ⟨2, ![a, n]⟩ ![0, 0] ![0, p] ![0, 0] x v h hu (ix2 i j)
      = if hj : j.val < o then x (ix2 i ⟨j.val, hj⟩) else v (Shape.Idx.first hu) := by
  by_cases hj : j.val < o
  · rw [dif_pos hj]
    refine pad_apply_of_inside _ _ _ x v h hu _ (ix2 i ⟨j.val, hj⟩) fun ax => ?_
    match ax with
    | ⟨0, _⟩ => show i.val = 0 + i.val * (0 + 1); omega
    | ⟨1, _⟩ => show j.val = 0 + j.val * (0 + 1); omega
  · rw [dif_neg hj]
    refine pad_apply_of_not_inside _ _ _ x v h hu _ (1 : Fin 2) ?_
    show ¬(0 ≤ j.val ∧ (j.val - 0) % (0 + 1) = 0 ∧ (j.val - 0) / (0 + 1) < o)
    rintro ⟨-, -, h3⟩
    rw [Nat.sub_zero, Nat.zero_add, Nat.div_one] at h3
    exact hj h3

/-- A [o] vector padded after its axis to [n] reads, at j, the vector at j while j < o, and the padding value from
    entry o on. -/
theorem padTail_apply {o p n : ℕ} (x : (⟨1, ![o]⟩ : Shape).Idx → α) {u : Shape} (v : u.Idx → α)
    (h : (⟨1, ![o]⟩ : Shape).Pads (![0] : Fin 1 → ℕ) ![p] ![0] ⟨1, ![n]⟩) (hu : 0 < u.numel) (j : Fin n) :
    pad ⟨1, ![n]⟩ ![0] ![p] ![0] x v h hu (ix1 j)
      = if hj : j.val < o then x (ix1 ⟨j.val, hj⟩) else v (Shape.Idx.first hu) := by
  by_cases hj : j.val < o
  · rw [dif_pos hj]
    refine pad_apply_of_inside _ _ _ x v h hu _ (ix1 ⟨j.val, hj⟩) fun ax => ?_
    match ax with
    | ⟨0, _⟩ => show j.val = 0 + j.val * (0 + 1); omega
  · rw [dif_neg hj]
    refine pad_apply_of_not_inside _ _ _ x v h hu _ (0 : Fin 1) ?_
    show ¬(0 ≤ j.val ∧ (j.val - 0) % (0 + 1) = 0 ∧ (j.val - 0) / (0 + 1) < o)
    rintro ⟨-, -, h3⟩
    rw [Nat.sub_zero, Nat.zero_add, Nat.div_one] at h3
    exact hj h3

end Cert.StackPad

end
-- ==== Proof.Bridge.lean ====
/-
  The two results are one function of the arguments.

  Entry (r, q), q < 10, of the kernel's result is column q of `padded` at row r: the network of row r of x through the
  first layer, the floor at zero, and the second layer padded to 128 columns. The network at output q reads the second
  layer through column q of its matrix and entry q of its bias only, and for q < 10 padding leaves both as they were, so
  this is the network through the unpadded second layer — which is what the reference computes at (r, q): its two
  `dot_general`s with a bias row repeated down the rows are the same two dense layers, its `maximum` against a splat zero
  the same floor. The sums on both sides run over the same index sets in the same order; no law of the extended reals
  beyond rewriting equal terms is used, and the precondition is not needed.
-/
import proofs.«115376_j21251498180718_2_alg».proof.Proof.KernelRun
import proofs.«115376_j21251498180718_2_alg».proof.Proof.LibStackPad
import proofs.«115376_j21251498180718_2_alg».proof.Proof.Gen.ReferenceIdeal.Read

noncomputable section

namespace Cert.Mlp

open Idealize.ShloMosaic Idealize.ShloMosaic.ValueIdx Cert.DenseLayer

open Cert.KernelIdeal.Facts₀ in
/-- The kernel's result at entry (r, q) is the network of row r of x through the unpadded second layer. -/
theorem kernel_apply (X : FVec Ideal Cert.KernelIdeal.S8192x3072 .f32) (W1 : FVec Ideal Cert.KernelIdeal.S3072x4096 .f32)
    (B1 : FVec Ideal Cert.KernelIdeal.S4096 .f32) (W2 : FVec Ideal Cert.KernelIdeal.S4096x10 .f32)
    (B2 : FVec Ideal Cert.KernelIdeal.S10 .f32) (r : Fin 8192) (q : Fin 10) :
    Cert.KernelIdeal.Body.result X W1 B1 W2 B2 (ix2 r q)
      = net (fun k => X (ix2 r k)) W1 (fun j => B1 (ix1 j)) (Ideal.ofBits .f32 0x00000000#32) W2 (fun q => B2 (ix1 q)) q := by
  have hq : q.val < 128 := by have := q.isLt; omega
  unfold Cert.KernelIdeal.Body.result
  rw [extractStridedSlice_apply _ _ _ (ix2 r q) (ix2 r (⟨q.val, hq⟩ : Fin 128)) (fun a => by
    match a with
    | ⟨0, _⟩ => show r.val = 0 + r.val; omega
    | ⟨1, _⟩ => show q.val = 0 + q.val; omega)]
  unfold Cert.KernelIdeal.Body.padded
  refine net_congr _ _ _ _ _ _ _ _ _ _ _ (fun _ => rfl) (fun j => ?_) ?_
  · exact (Cert.StackPad.padCols_apply W2 (Cert.KernelIdeal.Entry.padv (F := Ideal)) pads_S4096x10_S4096x128_000_01180 h_S_ j
      (⟨q.val, hq⟩ : Fin 128)).trans (dif_pos q.isLt)
  · exact (Cert.StackPad.padTail_apply B2 (Cert.KernelIdeal.Entry.padv (F := Ideal)) pads_S10_S128_01180 h_S_
      (⟨q.val, hq⟩ : Fin 128)).trans (dif_pos q.isLt)

/-- The reference's result at entry (r, q) is the same network. -/
theorem reference_apply (x0 : FVec Ideal Cert.ReferenceIdeal.S8192x3072 .f32) (x1 : FVec Ideal Cert.ReferenceIdeal.S3072x4096 .f32)
    (x2 : FVec Ideal Cert.ReferenceIdeal.S4096 .f32) (x3 : FVec Ideal Cert.ReferenceIdeal.S4096x10 .f32)
    (x4 : FVec Ideal Cert.ReferenceIdeal.S10 .f32) (r : Fin 8192) (q : Fin 10) :
    Cert.ReferenceIdeal.Read.val_main_v8 (F := Ideal) x0 x1 x2 x3 x4 (ix2 r q)
      = net (fun k => x0 (ix2 r k)) x1 (fun j => x2 (ix1 j)) (Ideal.ofBits .f32 0x00000000#32) x3 (fun q => x4 (ix1 q)) q := by
  unfold Cert.ReferenceIdeal.Read.val_main_v8 Cert.ReferenceIdeal.Read.val_main_v5 Cert.ReferenceIdeal.Read.val_main_v7
    Cert.ReferenceIdeal.Read.val_main_v6
  refine (hostDense_apply (M := 8192) (K := 4096) (N := 10) _ _ _ _ _ r q).trans ?_
  unfold net
  refine dense_congr _ _ _ _ _ _ q q (fun j => ?_) (fun _ => rfl) rfl
  show max _ _ = max _ _
  refine congrArg (max · _) ?_
  unfold Cert.ReferenceIdeal.Read.val_main_v3 Cert.ReferenceIdeal.Read.val_main_v0 Cert.ReferenceIdeal.Read.val_main_v2
    Cert.ReferenceIdeal.Read.val_main_v1
  exact hostDense_apply (M := 8192) (K := 3072) (N := 4096) _ _ _ _ _ r j

/-- The reference's result is the kernel's. -/
theorem reference_eq_kernel (x0 : FVec Ideal Cert.ReferenceIdeal.S8192x3072 .f32) (x1 : FVec Ideal Cert.ReferenceIdeal.S3072x4096 .f32)
    (x2 : FVec Ideal Cert.ReferenceIdeal.S4096 .f32) (x3 : FVec Ideal Cert.ReferenceIdeal.S4096x10 .f32)
    (x4 : FVec Ideal Cert.ReferenceIdeal.S10 .f32) :
    Cert.ReferenceIdeal.Read.val_main_v8 (F := Ideal) x0 x1 x2 x3 x4 = Cert.KernelIdeal.Body.result x0 x1 x2 x3 x4 := by
  funext i
  obtain ⟨r, q, rfl⟩ : ∃ (r : Fin 8192) (q : Fin 10), i = ix2 r q := ⟨i 0, i 1, eq_ix2 i⟩
  rw [reference_apply]
  exact (kernel_apply x0 x1 x2 x3 x4 r q).symm

end Cert.Mlp

end
-- ==== Proof.lean ====
/-
  A two-layer perceptron, out = relu(x · W1 + b1) · W2 + b2 over x : [8192, 3072], W1 : [3072, 4096], W2 : [4096, 10],
  as a kernel that works on 256 rows of x per grid point with both weight matrices resident — the second one padded by
  the host to 128 columns, the result's 118 extra columns cut off after the launch — against the plain jnp expression.

  At the extended reals a change of float format is the identity, so the kernel's bf16 operands are the arguments
  themselves, and both programs compute, at entry (r, q), the same two nested sums over the same index sets:
  the row r of x through the first layer, floored at zero, through column q of the second layer. The padded columns are
  never read for q < 10. The three frames are the generated ones (the reference's is its generated run with the result
  dropped), the ideal pass rewrote nothing, and the algebraic claim states both runs' results as one function of the
  arguments (`Cert.KernelIdeal.Body.result`), which the reference's generated term equals index by index.
-/
import proofs.«115376_j21251498180718_2_alg».proof.Defs
import proofs.«115376_j21251498180718_2_alg».proof.Proof.Gen.Kernel
import proofs.«115376_j21251498180718_2_alg».proof.Proof.Gen.Kernel.Skeleton
import proofs.«115376_j21251498180718_2_alg».proof.Proof.Gen.Kernel.Launch
import proofs.«115376_j21251498180718_2_alg».proof.Proof.Gen.Kernel.Points
import proofs.«115376_j21251498180718_2_alg».proof.Proof.Gen.Kernel.Frame
import proofs.«115376_j21251498180718_2_alg».proof.Proof.Gen.KernelIdeal
import proofs.«115376_j21251498180718_2_alg».proof.Proof.Gen.KernelIdeal.Skeleton
import proofs.«115376_j21251498180718_2_alg».proof.Proof.Gen.KernelIdeal.Launch
import proofs.«115376_j21251498180718_2_alg».proof.Proof.Gen.KernelIdeal.Points
import proofs.«115376_j21251498180718_2_alg».proof.Proof.Gen.KernelIdeal.Frame
import proofs.«115376_j21251498180718_2_alg».proof.Proof.Gen.ReferenceIdeal
import proofs.«115376_j21251498180718_2_alg».proof.Proof.Gen.ReferenceIdeal.Run
import proofs.«115376_j21251498180718_2_alg».proof.Proof.Gen.ReferenceIdeal.Read
import proofs.«115376_j21251498180718_2_alg».proof.Proof.Gen.Pre_finite_inputs
import proofs.«115376_j21251498180718_2_alg».proof.Proof.Bridge
import Idealize.ShloMosaic.Adequacy
import Idealize.ShloMosaic.Init

noncomputable section

namespace Cert.Proof

open Idealize.ShloMosaic Idealize.ShloMosaic.TcCoe Idealize.SL.Sem

/-- The three frames: the two kernels' are generated whole; the reference's is its generated run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the extended reals: nothing to preserve. -/
theorem preserves : Cert.preserves_Kernel_KernelIdeal := trivial

/-- Both programs end with the result buffer at one function of the arguments: the kernel's run gives it directly, and
    the reference's generated term equals it index by index. -/
theorem algebraic : Cert.algebraic_KernelIdeal_ReferenceIdeal := by
  intro m ρ m' ρ' _ hagree
  refine ⟨_, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.Mlp.reference_eq_kernel, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
